-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S128 .f32) (main_arg7 : FVec F S800000 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S800000 .f32 := Host.absf main_arg7
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x256 .f32) (main_arg1 : FVec F S256x256 .f32) (main_arg2 : FVec F S256 .f32) (main_arg3 : FVec F S256x128 .f32) (main_arg4 : FVec F S128 .f32) (main_arg5 : IVec S800000 32) (main_arg6 : IVec S800000 32) (main_arg7 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg7 main_v13 main_v16
-- ==== Kernel.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 46
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x1, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x128, .f32⟩
  | .hbm, ⟨45, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S_, .f32⟩
  | .hbm, ⟨30, _⟩ => ⟨S50000x256, .f32⟩
  | .hbm, ⟨31, _⟩ => ⟨S50000x256, .i1⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S_, .f32⟩
  | .hbm, ⟨58, _⟩ => ⟨S50000x128, .f32⟩
  | .hbm, ⟨59, _⟩ => ⟨S50000x128, .i1⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v35 : Ref sig .tc := ⟨.hbm, 63, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel's run with its result named. Every weakly fair execution of @main — four pipelined regions among
  two stretches of host operations — terminates without a fault; at the end each argument array is as launched, and the
  result array holds what the last region's write-backs leave of the contents the fold through the earlier segments
  hands it (`Gen.W6`, the contents at the last segment boundary). The value proof reads `Gen.W6` at the result buffer
  back through the segments, one at a time.
-/
import proofs.«156183_j30571577213152_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the eight arguments as launched. The final state holds every
    unscoped buffer at the last boundary's contents; the result buffer is one of them, and each argument's contents there
    walk back to the launch memory. -/
theorem run_out : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.KTerm.lean ====
/-
  The two stretches of host operations between the idealized kernel's regions, each read back over ARBITRARY starting
  contents. A stretch wraps the negative edge sources, gathers the source rows of the projected features, scales them by
  the edge weights and adds them up per destination node (`agg256`, `agg128`), and lays the bias out as a one-row
  array (`row256`, `row128`); it writes no argument array.
-/
import proofs.«156183_j30571577213152_1_alg».proof.Proof.Gen.KernelIdeal.Launch
import Idealize.ShloMosaic.Lib.StableHlo.Run

noncomputable section

namespace Cert.KernelIdeal.KTerm

open Cert.KernelIdeal Cert.KernelIdeal.Gen Idealize.ShloMosaic Idealize.ShloMosaic.TcCoe Idealize.SL.Sem Idealize.ShloMosaic.StableHlo

variable {F : FTy → Type} [FloatOps F]

/-- The source indices as the gather takes them: `src + 50000` where `src < 0`, as a column. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge weights as a column. -/
def ewCol (ew : FVec F S800000 .f32) : FVec F S800000x1 .f32 :=
  broadcastInDim S800000x1 ![0] bcast_S800000_S800000x1_0 ew

/-- Aggregation of a `50000 × 256` feature array along the edges. -/
def agg256 (sup : FVec F S50000x256 .f32) (src dst : IVec S800000 32) (ew : FVec F S800000 .f32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (mulf (Host.gather gather_S50000x256_S800000x1_S800000x256_1_0_n_n_0_1_1256 sup (srcIdx src))
      (broadcastInDim S800000x256 ![0, 1] bcast_S800000x1_S800000x256_0_1 (ewCol ew)))

/-- Aggregation of a `50000 × 128` feature array along the edges. -/
def agg128 (sup : FVec F S50000x128 .f32) (src dst : IVec S800000 32) (ew : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 sup (srcIdx src))
      (broadcastInDim S800000x128 ![0, 1] bcast_S800000x1_S800000x128_0_1 (ewCol ew)))

/-- A bias of 256 entries as a `1 × 256` array. -/
def row256 (b : FVec F S256 .f32) : FVec F S1x256 .f32 := fun i => shapeCast S1x256 b shapeCasts_S256_S1x256 i

/-- A bias of 128 entries as a `1 × 128` array. -/
def row128 (b : FVec F S128 .f32) : FVec F S1x128 .f32 := fun i => shapeCast S1x128 b shapeCasts_S128_S1x128 i

variable (W : Valuation τ sig (Elt F))

/-! ## The first stretch -/

theorem stretch1_agg : after hostOps1 W (main_v13 : DevRef τ sig)
    = agg256 (W (main_v0 : DevRef τ sig)) (W (main_arg5 : DevRef τ sig)) (W (main_arg6 : DevRef τ sig)) (W (main_arg7 : DevRef τ sig)) := by
  after_results
  rfl

theorem stretch1_row : after hostOps1 W (main_v14 : DevRef τ sig) = row256 (W (main_arg2 : DevRef τ sig)) := by
  after_results
  rfl

theorem stretch1_arg3 : after hostOps1 W (main_arg3 : DevRef τ sig) = W (main_arg3 : DevRef τ sig) := by after_results
theorem stretch1_arg4 : after hostOps1 W (main_arg4 : DevRef τ sig) = W (main_arg4 : DevRef τ sig) := by after_results
theorem stretch1_arg5 : after hostOps1 W (main_arg5 : DevRef τ sig) = W (main_arg5 : DevRef τ sig) := by after_results
theorem stretch1_arg6 : after hostOps1 W (main_arg6 : DevRef τ sig) = W (main_arg6 : DevRef τ sig) := by after_results
theorem stretch1_arg7 : after hostOps1 W (main_arg7 : DevRef τ sig) = W (main_arg7 : DevRef τ sig) := by after_results

/-! ## The second stretch -/

theorem stretch3_agg : after hostOps3 W (main_v29 : DevRef τ sig)
    = agg128 (W (main_v16 : DevRef τ sig)) (W (main_arg5 : DevRef τ sig)) (W (main_arg6 : DevRef τ sig)) (W (main_arg7 : DevRef τ sig)) := by
  after_results
  rfl

theorem stretch3_row : after hostOps3 W (main_v30 : DevRef τ sig) = row128 (W (main_arg4 : DevRef τ sig)) := by
  after_results
  rfl

end Cert.KernelIdeal.KTerm

end
-- ==== Proof.Spec.lean ====
/-
  The two whole-array functions a graph-convolution layer is made of, index by index over the extended reals, and the
  one law that joins the two spellings of the leaky rectifier.

  A layer is: project every node's features by a dense matrix (`mm`), gather the projected rows along the edges, scale
  them by the edge weights and add them up per destination node (the same operations on both sides of the claim, never
  opened here), then add a bias row and apply the leaky rectifier (`act`).
-/
import Idealize.ShloMosaic.PureOps.Ideal
import Idealize.ShloMosaic.PureOps.Ideal.Laws
import Idealize.ShloMosaic.Lib.ValueIdx

noncomputable section

open scoped BigOperators

namespace Cert.Proof.Spec

open Idealize.ShloMosaic Idealize.ShloMosaic.ValueIdx

/-- Rows times columns: entry `(r, j)` of the product of an `M × K` array and a `K × N` array is `∑ k, X (r, k) · W (k, j)`. -/
def mm {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The rectifier's slope on the negative side: the binary value nearest one hundredth, the same word in both programs. -/
def slope : EReal := Ideal.ofBits .f32 0x3C23D70A#32

/-- The leaky rectifier of one extended real: itself where positive, scaled by the slope elsewhere. -/
def leaky (a : EReal) : EReal := if 0 < a then a else a * slope

/-- Bias and rectifier: entry `(r, j)` is the leaky rectifier of `A (r, j) + b (0, j)`, the bias a row `1 × N`. -/
def act {M N : Nat} (A : (⟨2, ![M, N]⟩ : Shape).Idx → EReal) (b : (⟨2, ![1, N]⟩ : Shape).Idx → EReal) :
    (⟨2, ![M, N]⟩ : Shape).Idx → EReal :=
  fun i => leaky (A i + b (ix2 (0 : Fin 1) (i 1)))

/-- The strict spelling: select on `a > 0` between `a` and `a · slope`. -/
theorem select_ogt (a : EReal) :
    Scalar.select (Ideal.cmp .ogt a (Ideal.ofBits .f32 0x00000000#32)) a (a * Ideal.ofBits .f32 0x3C23D70A#32) = leaky a := by
  unfold leaky slope Scalar.select Ideal.cmp
  rw [Ideal.ofBits_zero_f32]
  by_cases h : (0 : EReal) < a
  · simp [h]
  · simp [h]

/-- The weak spelling: select on `a ≥ 0` between `a` and `slope · a`. The two differ only at `a = 0`, where the
    first gives `0 · slope = 0` and the second `0`; the products commute. -/
theorem select_oge (a : EReal) :
    Scalar.select (Ideal.cmp .oge a (Ideal.ofBits .f32 0x00000000#32)) a (Ideal.ofBits .f32 0x3C23D70A#32 * a) = leaky a := by
  unfold leaky slope Scalar.select Ideal.cmp
  rw [Ideal.ofBits_zero_f32]
  by_cases h : (0 : EReal) < a
  · simp [h, le_of_lt h]
  · by_cases h0 : (0 : EReal) ≤ a
    · have ha : a = 0 := le_antisymm (not_lt.mp h) h0
      subst ha
      simp
    · simp [h, h0, mul_comm]

end Cert.Proof.Spec

end
-- ==== Proof.KChain.lean ====
/-
  The idealized kernel's result array, read back through the segments of its run. At the last segment boundary the result
  buffer holds what the fourth region leaves; that region's inputs are what the second host stretch computed from the
  third region's output; and so on back to the launch memory. Given each region as one whole-array function of the
  contents it is entered with (the four hypotheses `h0 … h3`: two products, two bias-and-rectifier maps), the result is
  the two layers composed (`result`): project, aggregate along the edges, add the bias, rectify — twice.
-/
import proofs.«156183_j30571577213152_1_alg».proof.Proof.Gen.KernelIdeal.Frame
import proofs.«156183_j30571577213152_1_alg».proof.Proof.KTerm
import proofs.«156183_j30571577213152_1_alg».proof.Proof.Spec

noncomputable section

namespace Cert.KernelIdeal.KChain

open Cert.KernelIdeal Cert.KernelIdeal.Gen Idealize.ShloMosaic Idealize.ShloMosaic.TcCoe Idealize.SL.Sem Idealize.ShloMosaic.StableHlo
open Cert.Proof

/-- The hidden layer: project the node features by `w1`, aggregate along the edges, add `b1`, rectify. -/
def hidden (x : FVec Ideal S50000x256 .f32) (w1 : FVec Ideal S256x256 .f32) (b1 : FVec Ideal S256 .f32)
    (src dst : IVec S800000 32) (ew : FVec Ideal S800000 .f32) : FVec Ideal S50000x256 .f32 :=
  Spec.act (KTerm.agg256 (F := Ideal) (Spec.mm x w1) src dst ew) (KTerm.row256 (F := Ideal) b1)

/-- The result: the same layer again on the hidden array, with `w2` and `b2`. -/
def result (x : FVec Ideal S50000x256 .f32) (w1 : FVec Ideal S256x256 .f32) (b1 : FVec Ideal S256 .f32) (w2 : FVec Ideal S256x128 .f32)
    (b2 : FVec Ideal S128 .f32) (src dst : IVec S800000 32) (ew : FVec Ideal S800000 .f32) : FVec Ideal S50000x128 .f32 :=
  Spec.act (KTerm.agg128 (F := Ideal) (Spec.mm (hidden x w1 b1 src dst ew) w2) src dst ew) (KTerm.row128 (F := Ideal) b2)

variable (m : (ℓ : Loc nD τ sig) → Buf (Elt Ideal) ℓ) (ρ : Dev nD → PrngReg)

/-! ## Buffers no segment so far has written hold the launch contents -/

theorem W1_keep (c : Dev nD) (b : Ref sig .tc) (hb : ∀ w, Pipeline.arrRef spec0 w ≠ b) :
    W1 m ρ c (Proc.devRef .tc b) = m ((c : Thread nD τ).loc b) := (W1_of_ne m ρ c b hb).trans rfl

theorem W2_arg3 (c : Dev nD) : W2 m ρ c (Proc.devRef .tc main_arg3) = m ((c : Thread nD τ).loc main_arg3) :=
  (KTerm.stretch1_arg3 (W1 m ρ c)).trans (W1_keep m ρ c main_arg3 (by decide))
theorem W2_arg4 (c : Dev nD) : W2 m ρ c (Proc.devRef .tc main_arg4) = m ((c : Thread nD τ).loc main_arg4) :=
  (KTerm.stretch1_arg4 (W1 m ρ c)).trans (W1_keep m ρ c main_arg4 (by decide))
theorem W2_arg5 (c : Dev nD) : W2 m ρ c (Proc.devRef .tc main_arg5) = m ((c : Thread nD τ).loc main_arg5) :=
  (KTerm.stretch1_arg5 (W1 m ρ c)).trans (W1_keep m ρ c main_arg5 (by decide))
theorem W2_arg6 (c : Dev nD) : W2 m ρ c (Proc.devRef .tc main_arg6) = m ((c : Thread nD τ).loc main_arg6) :=
  (KTerm.stretch1_arg6 (W1 m ρ c)).trans (W1_keep m ρ c main_arg6 (by decide))
theorem W2_arg7 (c : Dev nD) : W2 m ρ c (Proc.devRef .tc main_arg7) = m ((c : Thread nD τ).loc main_arg7) :=
  (KTerm.stretch1_arg7 (W1 m ρ c)).trans (W1_keep m ρ c main_arg7 (by decide))

theorem W3_arg3 (c : Dev nD) : W3 m ρ c (Proc.devRef .tc main_arg3) = m ((c : Thread nD τ).loc main_arg3) :=
  (W3_of_ne m ρ c main_arg3 (by decide)).trans (W2_arg3 m ρ c)

theorem W4_arg4 (c : Dev nD) : W4 m ρ c (Proc.devRef .tc main_arg4) = m ((c : Thread nD τ).loc main_arg4) :=
  (W4_of_ne m ρ c main_arg4 (by decide)).trans ((W3_of_ne m ρ c main_arg4 (by decide)).trans (W2_arg4 m ρ c))
theorem W4_arg5 (c : Dev nD) : W4 m ρ c (Proc.devRef .tc main_arg5) = m ((c : Thread nD τ).loc main_arg5) :=
  (W4_of_ne m ρ c main_arg5 (by decide)).trans ((W3_of_ne m ρ c main_arg5 (by decide)).trans (W2_arg5 m ρ c))
theorem W4_arg6 (c : Dev nD) : W4 m ρ c (Proc.devRef .tc main_arg6) = m ((c : Thread nD τ).loc main_arg6) :=
  (W4_of_ne m ρ c main_arg6 (by decide)).trans ((W3_of_ne m ρ c main_arg6 (by decide)).trans (W2_arg6 m ρ c))
theorem W4_arg7 (c : Dev nD) : W4 m ρ c (Proc.devRef .tc main_arg7) = m ((c : Thread nD τ).loc main_arg7) :=
  (W4_of_ne m ρ c main_arg7 (by decide)).trans ((W3_of_ne m ρ c main_arg7 (by decide)).trans (W2_arg7 m ρ c))

/-! ## The four regions' outputs, from the launch memory -/

section Regions

variable
  (h0 : ∀ (V : (c : Dev nD) → (b : Ref sig .tc) → Buf (Elt Ideal) ((c : Thread nD τ).loc b)) (c : Dev nD),
    (dat0 (F := Ideal) V c).arrAt 2 cfg0.N = Spec.mm (M := 50000) (K := 256) (N := 256) (V c main_arg0) (V c main_arg1))
  (h1 : ∀ (V : (c : Dev nD) → (b : Ref sig .tc) → Buf (Elt Ideal) ((c : Thread nD τ).loc b)) (c : Dev nD),
    (dat1 (F := Ideal) V c).arrAt 2 cfg1.N = Spec.act (M := 50000) (N := 256) (V c main_v13) (V c main_v14))
  (h2 : ∀ (V : (c : Dev nD) → (b : Ref sig .tc) → Buf (Elt Ideal) ((c : Thread nD τ).loc b)) (c : Dev nD),
    (dat2 (F := Ideal) V c).arrAt 2 cfg2.N = Spec.mm (M := 50000) (K := 256) (N := 128) (V c main_v15) (V c main_arg3))
  (h3 : ∀ (V : (c : Dev nD) → (b : Ref sig .tc) → Buf (Elt Ideal) ((c : Thread nD τ).loc b)) (c : Dev nD),
    (dat3 (F := Ideal) V c).arrAt 2 cfg3.N = Spec.act (M := 50000) (N := 128) (V c main_v29) (V c main_v30))

include h0 in
/-- After the first region: the node features projected by `w1`. -/
theorem projected1 (c : Dev nD) :
    W1 m ρ c (Proc.devRef .tc main_v0) = Spec.mm (m ((c : Thread nD τ).loc main_arg0)) (m ((c : Thread nD τ).loc main_arg1)) :=
  (W1_arr m ρ c 2).trans (h0 (V0 m ρ) c)

include h0 in
/-- After the first stretch: the projected features aggregated along the edges. -/
theorem aggregated1 (c : Dev nD) :
    W2 m ρ c (Proc.devRef .tc main_v13)
      = KTerm.agg256 (F := Ideal) (Spec.mm (m ((c : Thread nD τ).loc main_arg0)) (m ((c : Thread nD τ).loc main_arg1))) (m ((c : Thread nD τ).loc main_arg5)) (m ((c : Thread nD τ).loc main_arg6)) (m ((c : Thread nD τ).loc main_arg7)) := by
  refine (KTerm.stretch1_agg (W1 m ρ c)).trans ?_
  rw [projected1 m ρ h0 c, W1_keep m ρ c main_arg5 (by decide), W1_keep m ρ c main_arg6 (by decide), W1_keep m ρ c main_arg7 (by decide)]

/-- After the first stretch: the first bias as a row. -/
theorem biasrow1 (c : Dev nD) : W2 m ρ c (Proc.devRef .tc main_v14) = KTerm.row256 (F := Ideal) (m ((c : Thread nD τ).loc main_arg2)) :=
  (KTerm.stretch1_row (W1 m ρ c)).trans (congrArg (KTerm.row256 (F := Ideal)) (W1_keep m ρ c main_arg2 (by decide)))

include h0 h1 in
/-- After the second region: the hidden layer. -/
theorem hidden_eq (c : Dev nD) :
    W3 m ρ c (Proc.devRef .tc main_v15) = hidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W3_arr m ρ c 2).trans ((h1 (V2 m ρ) c).trans ?_)
  show Spec.act (W2 m ρ c (Proc.devRef .tc main_v13)) (W2 m ρ c (Proc.devRef .tc main_v14)) = _
  rw [aggregated1 m ρ h0 c, biasrow1 m ρ c]
  rfl

include h0 h1 h2 in
/-- After the third region: the hidden layer projected by `w2`. -/
theorem projected2 (c : Dev nD) :
    W4 m ρ c (Proc.devRef .tc main_v16)
      = Spec.mm (hidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg3)) := by
  refine (W4_arr m ρ c 2).trans ((h2 (V3 m ρ) c).trans ?_)
  show Spec.mm (W3 m ρ c (Proc.devRef .tc main_v15)) (W3 m ρ c (Proc.devRef .tc main_arg3)) = _
  rw [hidden_eq m ρ h0 h1 c, W3_arg3 m ρ c]

include h0 h1 h2 in
/-- After the second stretch: that projection aggregated along the edges. -/
theorem aggregated2 (c : Dev nD) :
    W5 m ρ c (Proc.devRef .tc main_v29)
      = KTerm.agg128 (F := Ideal) (Spec.mm (hidden (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg3)))
          (m ((c : Thread nD τ).loc main_arg5)) (m ((c : Thread nD τ).loc main_arg6)) (m ((c : Thread nD τ).loc main_arg7)) := by
  refine (KTerm.stretch3_agg (W4 m ρ c)).trans ?_
  rw [projected2 m ρ h0 h1 h2 c, W4_arg5 m ρ c, W4_arg6 m ρ c, W4_arg7 m ρ c]

/-- After the second stretch: the second bias as a row. -/
theorem biasrow2 (c : Dev nD) : W5 m ρ c (Proc.devRef .tc main_v30) = KTerm.row128 (F := Ideal) (m ((c : Thread nD τ).loc main_arg4)) :=
  (KTerm.stretch3_row (W4 m ρ c)).trans (congrArg (KTerm.row128 (F := Ideal)) (W4_arg4 m ρ c))

include h0 h1 h2 h3 in
/-- At the last boundary the result buffer holds the two layers composed. -/
theorem result_eq (c : Dev nD) :
    W6 m ρ c (Proc.devRef .tc main_v31)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((h3 (V5 m ρ) c).trans ?_)
  show Spec.act (W5 m ρ c (Proc.devRef .tc main_v29)) (W5 m ρ c (Proc.devRef .tc main_v30)) = _
  rw [aggregated2 m ρ h0 h1 h2 c, biasrow2 m ρ c]
  rfl

end Regions

end Cert.KernelIdeal.KChain

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.RegMm0.lean ====
/-
  The first dense projection of the kernel, as one whole-array product. The grid has ten points; point `t` reads
  rows `5000 t … 5000 t + 4999` of the `50000 × 256` feature array and the whole `256 × 256` weight, and writes their
  `5000 × 256` product (added to a zero accumulator) to the same rows of the output. At the extended reals the changes
  of format are the identity and the product is the textbook sum `∑ k, X (r, k) · W (k, c)`, so each block written
  back is the matching block of the matrix product of the two whole arrays; the ten blocks tile the output.
-/
import proofs.«156183_j30571577213152_1_alg».proof.Proof.Gen.KernelIdeal.Frame
import proofs.«156183_j30571577213152_1_alg».proof.Proof.Spec
import proofs.«156183_j30571577213152_1_alg».proof.Proof.LibPlainDot
import Idealize.ShloMosaic.Lib.Pipeline.Value
import Idealize.ShloMosaic.Lib.ValueIdx

set_option maxRecDepth 16384

noncomputable section

open scoped BigOperators

namespace Cert.KernelIdeal.RegMm0

open Cert.KernelIdeal Cert.KernelIdeal.Gen
open Idealize.ShloMosaic Idealize.ShloMosaic.TcCoe Idealize.SL.Sem Idealize.ShloMosaic.ValueIdx
open Idealize.ShloMosaic.Pipeline (Dat)

/-- The kernel's dimension numbers are the plain ones for `5000 × 256` by `256 × 256`. -/
theorem dims : dot_S5000x256_S256x256_S5000x256_1_0_0_1_n_n = DotDims.plain 5000 256 256 := rfl

/-- The body's payload at an index: entry `(r, c)` of the product of the loaded row block and the loaded weight. -/
theorem pay (x0 : Vec Ideal S5000x256 .f32) (x1 : Vec Ideal S256x256 .f32) (j : S5000x256.Idx) :
    k0_pay1 (F := Ideal) x0 x1 j = ∑ k : Fin 256, x0 (ix2 (j 0) k) * x1 (ix2 k (j 1)) :=
  Cert.Proof.PlainDot.matmul_plain_zero none (truncf .bf16 x0 bitsLt_bf16_f32) (truncf .bf16 x1 bitsLt_bf16_f32) j

/-- The origin, as the constant function. -/
theorem hz : (![0, 0] : Fin 2 → Nat) = fun _ => 0 := funext fun a => by fin_cases a <;> rfl

/-- The index maps over the grid: the feature and output blocks move down one block of rows per point, the weight
    block stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the matrix product of the two arrays as the region finds them: row
    `r` of the block is row `5000 t + r` of the features, the weight is read whole. -/
theorem flushed_eq (c : Dev nD) (t : Fin cfg0.N) :
    (dat0 (F := Ideal) V c).flushed 2 t = ((cfg0.win 2).blk t).view.read (Elt Ideal)
      (Cert.Proof.Spec.mm (M := 50000) (K := 256) (N := 256) (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x256) hz]
  refine funext fun (j : S5000x256.Idx) => ?_
  show k0_pay1 (F := Ideal) (iblk0 V c 0 t) (iblk0 V c 1 t) j
    = Cert.Proof.Spec.mm (M := 50000) (K := 256) (N := 256) (V c main_arg0) (V c main_arg1) (((cfg0.win 2).blk t).view.emb j)
  obtain ⟨e00, e01, e10, e11, e20, e21⟩ := idx_facts t
  refine (pay (iblk0 V c 0 t) (iblk0 V c 1 t) j).trans ?_
  refine Finset.sum_congr rfl fun k _ => ?_
  refine congrArg₂ (· * ·) ?_ ?_
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  · show V c main_arg1 (((cfg0.win 1).blk t).view.emb (ix2 k (j 1)))
      = V c main_arg1 (ix2 k ((((cfg0.win 2).blk t).view.emb j) 1))
    refine congrArg (V c main_arg1) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v0).slice (win0_2.rect t)).set ↔ _
  rw [View.set_slice_whole, Rect.mem_set_unit]
  exact Iff.rfl

/-- The ten row blocks tile the output: row `r` lies in the block of point `r / 5000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 5000 < grid0.N := by rw [N_0]; omega
  obtain ⟨-, -, -, -, e20, e21⟩ := idx_facts ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    omega

/-- The output array after the region holds the matrix product of the feature array and the weight, whole. -/
theorem final0 (c : Dev nD) :
    (dat0 (F := Ideal) V c).arrAt 2 cfg0.N
      = Cert.Proof.Spec.mm (M := 50000) (K := 256) (N := 256) (V c main_arg0) (V c main_arg1) :=
  (dat0 (F := Ideal) V c).arrAt_eq_of_cover 2 _ (fun t _ => flushed_eq V c t) cover

end Cert.KernelIdeal.RegMm0

end
-- ==== Proof.RegAct1.lean ====
/-
  The bias-and-rectifier region of the kernel as one whole-array function: every grid point adds the bias row to its
  block of rows and applies the leaky rectifier entry by entry, the blocks tile the rows, so the region's result array
  is the leaky rectifier of (input + bias row), index by index.
-/
import proofs.«156183_j30571577213152_1_alg».proof.Proof.Gen.KernelIdeal.Frame
import proofs.«156183_j30571577213152_1_alg».proof.Proof.Spec
import Idealize.ShloMosaic.Lib.Pipeline.Value
import Idealize.ShloMosaic.Lib.ValueIdx
import Idealize.ShloMosaic.Lib.ValueLayout

noncomputable section

namespace Cert.KernelIdeal.RegAct1

open Cert.KernelIdeal Cert.KernelIdeal.Gen Idealize.ShloMosaic Idealize.ShloMosaic.TcCoe Idealize.SL.Sem
open Idealize.ShloMosaic.ValueIdx
open Idealize.ShloMosaic.Pipeline (Dat)
open Cert.Proof

/-- The payload at one entry of a block: the leaky rectifier of the block's entry plus the bias row's entry in
    the same column. -/
theorem pay_apply (x0 : Vec Ideal S5000x256 .f32) (x1 : Vec Ideal S1x256 .f32) (p : Fin 5000) (q : Fin 256) :
    k1_pay1 x0 x1 (ix2 p q) = Spec.leaky (x0 (ix2 p q) + x1 (ix2 (0 : Fin 1) q)) := by
  unfold k1_pay1
  simp only [shapeCast_self]
  rw [select_apply, cmpf_apply, mulf_apply, addf_apply, broadcast_apply, broadcast_apply]
  rw [broadcastTo_apply x1 broadcasts_S1x256_S5000x256 (ix2 p q) (ix2 (0 : Fin 1) q) (fun a => by
    match a with
    | ⟨0, _⟩ => rfl
    | ⟨1, _⟩ => rfl)]
  exact Spec.select_ogt _

/-- The three windows' block indices at every grid point: the input and the output move down the rows together, one
    block per point; the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem zero_off : (![0, 0] : Fin 2 → Nat) = fun _ => 0 := funext fun a => by fin_cases a <;> rfl

variable (V : (c : Dev nD) → (b : Ref sig .tc) → Buf (Elt Ideal) ((c : Thread nD τ).loc b))

/-- The input's block at a point is the input array read where the output's block sits. -/
theorem in_blk (c : Dev nD) (t : Fin cfg1.N) (y : S5000x256.Idx) :
    iblk1 V c 0 t y = V c main_v13 (((cfg1.win 2).blk t).view.emb y) := by
  obtain ⟨e0, e1, -, -, e4, e5⟩ := idx_facts t
  show V c main_v13 (((cfg1.win 0).blk t).view.emb y) = V c main_v13 (((cfg1.win 2).blk t).view.emb y)
  refine congrArg (V c main_v13) (funext fun a => Fin.ext ?_)
  match a with
  | ⟨0, _⟩ => show win1_0.index t (0 : Fin 2) * 5000 + 1 * (y 0).val = win1_2.index t (0 : Fin 2) * 5000 + 1 * (y 0).val; rw [e0, e4]
  | ⟨1, _⟩ => show win1_0.index t (1 : Fin 2) * 256 + 1 * (y 1).val = win1_2.index t (1 : Fin 2) * 256 + 1 * (y 1).val; rw [e1, e5]

/-- The bias window's block at every point is the whole bias row. -/
theorem bias_blk (c : Dev nD) (t : Fin cfg1.N) (q : Fin 256) :
    iblk1 V c 1 t (ix2 (0 : Fin 1) q) = V c main_v14 (ix2 (0 : Fin 1) q) := by
  obtain ⟨-, -, e2, e3, -, -⟩ := idx_facts t
  show V c main_v14 (((cfg1.win 1).blk t).view.emb (ix2 (0 : Fin 1) q)) = V c main_v14 (ix2 (0 : Fin 1) q)
  refine congrArg (V c main_v14) (funext fun a => Fin.ext ?_)
  match a with
  | ⟨0, _⟩ => show win1_1.index t (0 : Fin 2) * 1 + 1 * 0 = 0; rw [e2]
  | ⟨1, _⟩ => show win1_1.index t (1 : Fin 2) * 256 + 1 * q.val = q.val; rw [e3]; omega

/-- The body's result at a point, entry by entry: the whole-array function read where the output's block sits. -/
theorem body_apply (c : Dev nD) (t : Fin cfg1.N) (j : S5000x256.Idx) :
    k1_pay1 (iblk1 V c 0 t) (iblk1 V c 1 t) j
      = Spec.act (M := 50000) (N := 256) (V c main_v13) (V c main_v14) (((cfg1.win 2).blk t).view.emb j) := by
  obtain ⟨p, q, rfl⟩ : ∃ (p : Fin 5000) (q : Fin 256), j = ix2 p q := ⟨j 0, j 1, eq_ix2 j⟩
  obtain ⟨-, -, -, -, -, e5⟩ := idx_facts t
  rw [pay_apply, in_blk, bias_blk]
  unfold Spec.act
  have hq : (((cfg1.win 2).blk t).view.emb (ix2 p q)) 1 = q := Fin.ext (by
    show win1_2.index t (1 : Fin 2) * 256 + 1 * q.val = q.val
    rw [e5]; omega)
  rw [hq]

/-- What a grid point writes back is its block of the whole-array function. -/
theorem flushed_eq (c : Dev nD) (t : Fin cfg1.N) :
    (dat1 (F := Ideal) V c).flushed 2 t
      = ((cfg1.win 2).blk t).view.read (Elt Ideal) (Spec.act (M := 50000) (N := 256) (V c main_v13) (V c main_v14)) := by
  show (cfg1.win 2).cut (grid1.coords t) ((dat1 V c).after 2 t) = _
  rw [after1_2]
  unfold out1_2
  rw [View.canon_unit_zero zero_off]
  simp only [View.ld_unit_zero (S := S5000x256) zero_off, View.ld_unit_zero (S := S1x256) zero_off]
  funext j
  exact body_apply V c t j

/-- An index of the array is in a point's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v15).slice (win1_2.rect t)).set ↔ _
  rw [View.set_slice_whole, Rect.mem_set_unit]
  exact Iff.rfl

/-- The blocks tile the rows: row `r` lies in the block of point `r / 5000`, and every point writes back. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 256 ≤ (i 1).val ∧ (i 1).val < win1_2.index t (1 : Fin 2) * 256 + 256
    omega

/-- The region's result array after the run: the leaky rectifier of the input plus the bias row, index by index. -/
theorem final1 (c : Dev nD) :
    (dat1 (F := Ideal) V c).arrAt 2 cfg1.N = Spec.act (M := 50000) (N := 256) (V c main_v13) (V c main_v14) :=
  (dat1 (F := Ideal) V c).arrAt_eq_of_cover 2 _ (fun t _ => flushed_eq V c t) cover

end Cert.KernelIdeal.RegAct1

end
-- ==== Proof.RegMm2.lean ====
/-
  The second dense projection of the kernel, as one whole-array product. The grid has ten points; point `t` reads
  rows `5000 t … 5000 t + 4999` of the `50000 × 256` hidden array and the whole `256 × 128` weight, and writes their
  `5000 × 128` product (added to a zero accumulator) to the same rows of the output. At the extended reals the changes
  of format are the identity and the product is the textbook sum `∑ k, X (r, k) · W (k, c)`, so each block written
  back is the matching block of the matrix product of the two whole arrays; the ten blocks tile the output. (The
  block of rows passes through one change of shape to its own shape, the identity.)
-/
import proofs.«156183_j30571577213152_1_alg».proof.Proof.Gen.KernelIdeal.Frame
import proofs.«156183_j30571577213152_1_alg».proof.Proof.Spec
import proofs.«156183_j30571577213152_1_alg».proof.Proof.LibPlainDot
import Idealize.ShloMosaic.Lib.Pipeline.Value
import Idealize.ShloMosaic.Lib.ValueIdx

set_option maxRecDepth 16384

noncomputable section

open scoped BigOperators

namespace Cert.KernelIdeal.RegMm2

open Cert.KernelIdeal Cert.KernelIdeal.Gen
open Idealize.ShloMosaic Idealize.ShloMosaic.TcCoe Idealize.SL.Sem Idealize.ShloMosaic.ValueIdx
open Idealize.ShloMosaic.Pipeline (Dat)

/-- The kernel's dimension numbers are the plain ones for `5000 × 256` by `256 × 128`. -/
theorem dims : dot_S5000x256_S256x128_S5000x128_1_0_0_1_n_n = DotDims.plain 5000 256 128 := rfl

/-- The body's payload at an index: entry `(r, c)` of the product of the loaded row block and the loaded weight (the
    row block's change of shape to its own shape is the identity). -/
theorem pay (x0 : Vec Ideal S5000x256 .f32) (x1 : Vec Ideal S256x128 .f32) (j : S5000x128.Idx) :
    k2_pay1 (F := Ideal) x0 x1 j = ∑ k : Fin 256, x0 (ix2 (j 0) k) * x1 (ix2 k (j 1)) := by
  refine (Cert.Proof.PlainDot.matmul_plain_zero none
    (truncf .bf16 (shapeCast S5000x256 x0 shapeCasts_S5000x256_S5000x256) bitsLt_bf16_f32)
    (truncf .bf16 x1 bitsLt_bf16_f32) j).trans ?_
  refine Finset.sum_congr rfl fun k _ => ?_
  exact congrArg (· * x1 (ix2 k (j 1))) (congrFun (shapeCast_self x0 shapeCasts_S5000x256_S5000x256) (ix2 (j 0) k))

/-- The origin, as the constant function. -/
theorem hz : (![0, 0] : Fin 2 → Nat) = fun _ => 0 := funext fun a => by fin_cases a <;> rfl

/-- The index maps over the grid: the feature and output blocks move down one block of rows per point, the weight
    block stays at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the matrix product of the two arrays as the region finds them: row
    `r` of the block is row `5000 t + r` of the hidden array, the weight is read whole. -/
theorem flushed_eq (c : Dev nD) (t : Fin cfg2.N) :
    (dat2 (F := Ideal) V c).flushed 2 t = ((cfg2.win 2).blk t).view.read (Elt Ideal)
      (Cert.Proof.Spec.mm (M := 50000) (K := 256) (N := 128) (V c main_v15) (V c main_arg3)) := by
  show (cfg2.win 2).cut (grid2.coords t) ((dat2 (F := Ideal) V c).after 2 t) = _
  rw [after2_2]
  unfold out2_2
  rw [View.canon_unit_zero hz]
  simp only [View.ld_unit_zero (S := S5000x256) hz, View.ld_unit_zero (S := S256x128) hz]
  refine funext fun (j : S5000x128.Idx) => ?_
  show k2_pay1 (F := Ideal) (iblk2 V c 0 t) (iblk2 V c 1 t) j
    = Cert.Proof.Spec.mm (M := 50000) (K := 256) (N := 128) (V c main_v15) (V c main_arg3) (((cfg2.win 2).blk t).view.emb j)
  obtain ⟨e00, e01, e10, e11, e20, e21⟩ := idx_facts t
  refine (pay (iblk2 V c 0 t) (iblk2 V c 1 t) j).trans ?_
  refine Finset.sum_congr rfl fun k _ => ?_
  refine congrArg₂ (· * ·) ?_ ?_
  · show V c main_v15 (((cfg2.win 0).blk t).view.emb (ix2 (j 0) k))
      = V c main_v15 (ix2 ((((cfg2.win 2).blk t).view.emb j) 0) k)
    refine congrArg (V c main_v15) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 256 + 1 * k.val = k.val
      omega
  · show V c main_arg3 (((cfg2.win 1).blk t).view.emb (ix2 k (j 1)))
      = V c main_arg3 (ix2 k ((((cfg2.win 2).blk t).view.emb j) 1))
    refine congrArg (V c main_arg3) (funext fun a => Fin.ext ?_)
    match a with
    | ⟨0, _⟩ =>
      show win2_1.index t (0 : Fin 2) * 256 + 1 * k.val = k.val
      omega
    | ⟨1, _⟩ =>
      show win2_1.index t (1 : Fin 2) * 128 + 1 * (j 1).val = win2_2.index t (1 : Fin 2) * 128 + 1 * (j 1).val
      omega

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v16).slice (win2_2.rect t)).set ↔ _
  rw [View.set_slice_whole, Rect.mem_set_unit]
  exact Iff.rfl

/-- The ten row blocks tile the output: row `r` lies in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < grid2.N := by rw [N_2]; omega
  obtain ⟨-, -, -, -, e20, e21⟩ := idx_facts ⟨(i 0).val / 5000, ht⟩
  have e20' : win2_2.index ⟨(i 0).val / 5000, ht⟩ (0 : Fin 2) = (i 0).val / 5000 := e20
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The output array after the region holds the matrix product of the hidden array and the weight, whole. -/
theorem final2 (c : Dev nD) :
    (dat2 (F := Ideal) V c).arrAt 2 cfg2.N
      = Cert.Proof.Spec.mm (M := 50000) (K := 256) (N := 128) (V c main_v15) (V c main_arg3) :=
  (dat2 (F := Ideal) V c).arrAt_eq_of_cover 2 _ (fun t _ => flushed_eq V c t) cover

end Cert.KernelIdeal.RegMm2

end
-- ==== Proof.RegAct3.lean ====
/-
  The bias-and-rectifier region of the kernel as one whole-array function: every grid point adds the bias row to its
  block of rows and applies the leaky rectifier entry by entry, the blocks tile the rows, so the region's result array
  is the leaky rectifier of (input + bias row), index by index.
-/
import proofs.«156183_j30571577213152_1_alg».proof.Proof.Gen.KernelIdeal.Frame
import proofs.«156183_j30571577213152_1_alg».proof.Proof.Spec
import Idealize.ShloMosaic.Lib.Pipeline.Value
import Idealize.ShloMosaic.Lib.ValueIdx
import Idealize.ShloMosaic.Lib.ValueLayout

noncomputable section

namespace Cert.KernelIdeal.RegAct3

open Cert.KernelIdeal Cert.KernelIdeal.Gen Idealize.ShloMosaic Idealize.ShloMosaic.TcCoe Idealize.SL.Sem
open Idealize.ShloMosaic.ValueIdx
open Idealize.ShloMosaic.Pipeline (Dat)
open Cert.Proof

/-- The payload at one entry of a block: the leaky rectifier of the block's entry plus the bias row's entry in
    the same column. -/
theorem pay_apply (x0 : Vec Ideal S5000x128 .f32) (x1 : Vec Ideal S1x128 .f32) (p : Fin 5000) (q : Fin 128) :
    k3_pay1 x0 x1 (ix2 p q) = Spec.leaky (x0 (ix2 p q) + x1 (ix2 (0 : Fin 1) q)) := by
  unfold k3_pay1
  simp only [shapeCast_self]
  rw [select_apply, cmpf_apply, mulf_apply, addf_apply, broadcast_apply, broadcast_apply]
  rw [broadcastTo_apply x1 broadcasts_S1x128_S5000x128 (ix2 p q) (ix2 (0 : Fin 1) q) (fun a => by
    match a with
    | ⟨0, _⟩ => rfl
    | ⟨1, _⟩ => rfl)]
  exact Spec.select_ogt _

/-- The three windows' block indices at every grid point: the input and the output move down the rows together, one
    block per point; the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem zero_off : (![0, 0] : Fin 2 → Nat) = fun _ => 0 := funext fun a => by fin_cases a <;> rfl

variable (V : (c : Dev nD) → (b : Ref sig .tc) → Buf (Elt Ideal) ((c : Thread nD τ).loc b))

/-- The input's block at a point is the input array read where the output's block sits. -/
theorem in_blk (c : Dev nD) (t : Fin cfg3.N) (y : S5000x128.Idx) :
    iblk3 V c 0 t y = V c main_v29 (((cfg3.win 2).blk t).view.emb y) := by
  obtain ⟨e0, e1, -, -, e4, e5⟩ := idx_facts t
  show V c main_v29 (((cfg3.win 0).blk t).view.emb y) = V c main_v29 (((cfg3.win 2).blk t).view.emb y)
  refine congrArg (V c main_v29) (funext fun a => Fin.ext ?_)
  match a with
  | ⟨0, _⟩ => show win3_0.index t (0 : Fin 2) * 5000 + 1 * (y 0).val = win3_2.index t (0 : Fin 2) * 5000 + 1 * (y 0).val; rw [e0, e4]
  | ⟨1, _⟩ => show win3_0.index t (1 : Fin 2) * 128 + 1 * (y 1).val = win3_2.index t (1 : Fin 2) * 128 + 1 * (y 1).val; rw [e1, e5]

/-- The bias window's block at every point is the whole bias row. -/
theorem bias_blk (c : Dev nD) (t : Fin cfg3.N) (q : Fin 128) :
    iblk3 V c 1 t (ix2 (0 : Fin 1) q) = V c main_v30 (ix2 (0 : Fin 1) q) := by
  obtain ⟨-, -, e2, e3, -, -⟩ := idx_facts t
  show V c main_v30 (((cfg3.win 1).blk t).view.emb (ix2 (0 : Fin 1) q)) = V c main_v30 (ix2 (0 : Fin 1) q)
  refine congrArg (V c main_v30) (funext fun a => Fin.ext ?_)
  match a with
  | ⟨0, _⟩ => show win3_1.index t (0 : Fin 2) * 1 + 1 * 0 = 0; rw [e2]
  | ⟨1, _⟩ => show win3_1.index t (1 : Fin 2) * 128 + 1 * q.val = q.val; rw [e3]; omega

/-- The body's result at a point, entry by entry: the whole-array function read where the output's block sits. -/
theorem body_apply (c : Dev nD) (t : Fin cfg3.N) (j : S5000x128.Idx) :
    k3_pay1 (iblk3 V c 0 t) (iblk3 V c 1 t) j
      = Spec.act (M := 50000) (N := 128) (V c main_v29) (V c main_v30) (((cfg3.win 2).blk t).view.emb j) := by
  obtain ⟨p, q, rfl⟩ : ∃ (p : Fin 5000) (q : Fin 128), j = ix2 p q := ⟨j 0, j 1, eq_ix2 j⟩
  obtain ⟨-, -, -, -, -, e5⟩ := idx_facts t
  rw [pay_apply, in_blk, bias_blk]
  unfold Spec.act
  have hq : (((cfg3.win 2).blk t).view.emb (ix2 p q)) 1 = q := Fin.ext (by
    show win3_2.index t (1 : Fin 2) * 128 + 1 * q.val = q.val
    rw [e5]; omega)
  rw [hq]

/-- What a grid point writes back is its block of the whole-array function. -/
theorem flushed_eq (c : Dev nD) (t : Fin cfg3.N) :
    (dat3 (F := Ideal) V c).flushed 2 t
      = ((cfg3.win 2).blk t).view.read (Elt Ideal) (Spec.act (M := 50000) (N := 128) (V c main_v29) (V c main_v30)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S1x128) zero_off]
  funext j
  exact body_apply V c t j

/-- An index of the array is in a point's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v31).slice (win3_2.rect t)).set ↔ _
  rw [View.set_slice_whole, Rect.mem_set_unit]
  exact Iff.rfl

/-- The blocks tile the rows: row `r` lies in the block of point `r / 5000`, and every point writes back. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The region's result array after the run: the leaky rectifier of the input plus the bias row, index by index. -/
theorem final3 (c : Dev nD) :
    (dat3 (F := Ideal) V c).arrAt 2 cfg3.N = Spec.act (M := 50000) (N := 128) (V c main_v29) (V c main_v30) :=
  (dat3 (F := Ideal) V c).arrAt_eq_of_cover 2 _ (fun t _ => flushed_eq V c t) cover

end Cert.KernelIdeal.RegAct3

end
-- ==== Proof.RefTerm.lean ====
/-
  What the reference computes, as one term of its arguments, stage by stage: the edge source indices with negative
  values wrapped, the aggregation of a projected feature array along the edges (gather the source rows, scale by the
  edge weights, add up per destination), the bias broadcast over the nodes, the leaky rectifier in its weak spelling,
  and the two layers composed. Each stage is literally the reference's operations in order.
-/
import proofs.«156183_j30571577213152_1_alg».proof.ReferenceIdeal
import proofs.«156183_j30571577213152_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The source indices as the gather takes them: `src + 50000` where `src < 0`, as a column. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge weights as a column. -/
def ewCol (ew : FVec F S800000 .f32) : FVec F S800000x1 .f32 :=
  broadcastInDim S800000x1 ![0] bcast_S800000_S800000x1_0 ew

/-- Aggregation of a `50000 × 256` feature array along the edges. -/
def agg256 (sup : FVec F S50000x256 .f32) (src dst : IVec S800000 32) (ew : FVec F S800000 .f32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (mulf (Host.gather gather_S50000x256_S800000x1_S800000x256_1_0_n_n_0_1_1256 sup (srcIdx src))
      (broadcastInDim S800000x256 ![0, 1] bcast_S800000x1_S800000x256_0_1 (ewCol ew)))

/-- Aggregation of a `50000 × 128` feature array along the edges. -/
def agg128 (sup : FVec F S50000x128 .f32) (src dst : IVec S800000 32) (ew : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 sup (srcIdx src))
      (broadcastInDim S800000x128 ![0, 1] bcast_S800000x1_S800000x128_0_1 (ewCol ew)))

/-- A bias of 256 entries repeated on every node. -/
def bias256 (b : FVec F S256 .f32) : FVec F S50000x256 .f32 :=
  broadcastInDim S50000x256 ![0, 1] bcast_S1x256_S50000x256_0_1 (broadcastInDim S1x256 ![1] bcast_S256_S1x256_1 b)

/-- A bias of 128 entries repeated on every node. -/
def bias128 (b : FVec F S128 .f32) : FVec F S50000x128 .f32 :=
  broadcastInDim S50000x128 ![0, 1] bcast_S1x128_S50000x128_0_1 (broadcastInDim S1x128 ![1] bcast_S128_S1x128_1 b)

/-- The leaky rectifier in its weak spelling, `a ≥ 0 ? a : slope · a`, on a `50000 × 256` array. -/
def lrelu256 (a : FVec F S50000x256 .f32) : FVec F S50000x256 .f32 :=
  select (cmpf .oge a (broadcastInDim S50000x256 ![] bcast_S_S50000x256 (constant S_ .f32 0x00000000#32))) a
    (mulf (broadcastInDim S50000x256 ![] bcast_S_S50000x256 (id (constant S_ .f32 0x3C23D70A#32))) a)

/-- The same on a `50000 × 128` array. -/
def lrelu128 (a : FVec F S50000x128 .f32) : FVec F S50000x128 .f32 :=
  select (cmpf .oge a (broadcastInDim S50000x128 ![] bcast_S_S50000x128 (constant S_ .f32 0x00000000#32))) a
    (mulf (broadcastInDim S50000x128 ![] bcast_S_S50000x128 (id (constant S_ .f32 0x3C23D70A#32))) a)

/-- The first layer: project by `w1`, aggregate, add `b1`, rectify. -/
def layer1 (x : FVec F S50000x256 .f32) (w1 : FVec F S256x256 .f32) (b1 : FVec F S256 .f32)
    (src dst : IVec S800000 32) (ew : FVec F S800000 .f32) : FVec F S50000x256 .f32 :=
  lrelu256 (addf (agg256 (Host.dotGeneral dot_S50000x256_S256x256_S50000x256_1_0_0_1_n_n none x w1) src dst ew) (bias256 b1))

/-- The second layer on a hidden array `h`: project by `w2`, aggregate, add `b2`, rectify. -/
def layer2 (h : FVec F S50000x256 .f32) (w2 : FVec F S256x128 .f32) (b2 : FVec F S128 .f32)
    (src dst : IVec S800000 32) (ew : FVec F S800000 .f32) : FVec F S50000x128 .f32 :=
  lrelu128 (addf (agg128 (Host.dotGeneral dot_S50000x256_S256x128_S50000x128_1_0_0_1_n_n none h w2) src dst ew) (bias128 b2))

/-- The reference's result. -/
def result (x : FVec F S50000x256 .f32) (w1 : FVec F S256x256 .f32) (b1 : FVec F S256 .f32) (w2 : FVec F S256x128 .f32)
    (b2 : FVec F S128 .f32) (src dst : IVec S800000 32) (ew : FVec F S800000 .f32) : FVec F S50000x128 .f32 :=
  layer2 (layer1 x w1 b1 src dst ew) w2 b2 src dst ew

end Cert.ReferenceIdeal.RefTerm

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefRun.lean ====
/-
  The reference's run. Its entry function is a straight line of host operations once the two calls of the leaky
  rectifier (each of which calls the selection in turn) are replaced by the callee's operations over the call's own
  buffers. The line is cut in four stages - the first layer up to the bias, the first rectifier, the second layer up to
  the bias, the second rectifier - and each stage is read back once over arbitrary starting contents; composed, the
  result buffer holds the two layers' term of the arguments, and the arguments are never written.
-/
import proofs.«156183_j30571577213152_1_alg».proof.Proof.Gen.ReferenceIdeal
import proofs.«156183_j30571577213152_1_alg».proof.Proof.RefTerm
import proofs.«156183_j30571577213152_1_alg».proof.Proof.LibStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer up to the bias: projection, wrapped source indices, gather, scaling, scatter-add, bias. -/
abbrev stage1 : List (HloOp τ sig (Elt F)) :=
  [ binary main_arg0 main_arg1 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg5 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg5 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg5 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_v0 main_v6 main_v7 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg7 main_v8 (broadcastInDim S800000x1 ![0] bcast_S800000_S800000x1_0 : (⟨S800000, .f32⟩ : BufTy).Contents (Elt F) → (⟨S800000x1, .f32⟩ : BufTy).Contents (Elt F)),
    unary main_v8 main_v9 (broadcastInDim S800000x256 ![0, 1] bcast_S800000x1_S800000x256_0_1 : (⟨S800000x1, .f32⟩ : BufTy).Contents (Elt F) → (⟨S800000x256, .f32⟩ : BufTy).Contents (Elt F)),
    binary main_v7 main_v9 main_v10 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_arg6 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v14 (broadcastInDim S1x256 ![1] bcast_S256_S1x256_1 : (⟨S256, .f32⟩ : BufTy).Contents (Elt F) → (⟨S1x256, .f32⟩ : BufTy).Contents (Elt F)),
    unary main_v14 main_v15 (broadcastInDim S50000x256 ![0, 1] bcast_S1x256_S50000x256_0_1 : (⟨S1x256, .f32⟩ : BufTy).Contents (Elt F) → (⟨S50000x256, .f32⟩ : BufTy).Contents (Elt F)),
    binary main_v13 main_v15 main_v16 (addf : (⟨S50000x256, .f32⟩ : BufTy).Contents (Elt F) → (⟨S50000x256, .f32⟩ : BufTy).Contents (Elt F) → (⟨S50000x256, .f32⟩ : BufTy).Contents (Elt F)) ]

/-- The first rectifier: its slope, then the callee's six operations and the selection's one, over the call's buffers. -/
abbrev stage2 : List (HloOp τ sig (Elt F)) :=
  [ nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v16) main_call0.v0 main_call0.v1 (cmpf .oge),
    TRef.unary (.of main_cst_1) main_call0.v2 id,
    TRef.unary main_call0.v2 main_call0.v3 (broadcastInDim S50000x256 ![] bcast_S_S50000x256),
    TRef.binary main_call0.v3 (.of main_v16) main_call0.v4 mulf,
    TRef.ternary main_call0.v1 (.of main_v16) main_call0.v4 main_call0.call0.v0 select ]

/-- The second layer up to the bias. -/
abbrev stage3 : List (HloOp τ sig (Elt F)) :=
  [ binary main_v17 main_arg3 main_v18 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_2 (constantI S_ 32 0#32),
    unary main_c_2 main_v19 (broadcastInDim S800000 ![] bcast_S_S800000 : (⟨S_, .i32⟩ : BufTy).Contents (Elt F) → (⟨S800000, .i32⟩ : BufTy).Contents (Elt F)),
    binary main_arg5 main_v19 main_v20 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v21 (broadcastInDim S800000 ![] bcast_S_S800000 : (⟨S_, .i32⟩ : BufTy).Contents (Elt F) → (⟨S800000, .i32⟩ : BufTy).Contents (Elt F)),
    binary main_arg5 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg5 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg7 main_v26 (broadcastInDim S800000x1 ![0] bcast_S800000_S800000x1_0 : (⟨S800000, .f32⟩ : BufTy).Contents (Elt F) → (⟨S800000x1, .f32⟩ : BufTy).Contents (Elt F)),
    unary main_v26 main_v27 (broadcastInDim S800000x128 ![0, 1] bcast_S800000x1_S800000x128_0_1 : (⟨S800000x1, .f32⟩ : BufTy).Contents (Elt F) → (⟨S800000x128, .f32⟩ : BufTy).Contents (Elt F)),
    binary main_v25 main_v27 main_v28 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v29 (broadcastInDim S50000x128 ![] bcast_S_S50000x128 : (⟨S_, .f32⟩ : BufTy).Contents (Elt F) → (⟨S50000x128, .f32⟩ : BufTy).Contents (Elt F)),
    unary main_arg6 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg4 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v31 main_v33 main_v34 (addf : (⟨S50000x128, .f32⟩ : BufTy).Contents (Elt F) → (⟨S50000x128, .f32⟩ : BufTy).Contents (Elt F) → (⟨S50000x128, .f32⟩ : BufTy).Contents (Elt F)) ]

/-- The second rectifier. -/
abbrev stage4 : List (HloOp τ sig (Elt F)) :=
  [ nullary main_cst_5 (constant S_ .f32 0x3C23D70A#32),
    TRef.nullary main_call1.cst (constant S_ .f32 0x00000000#32),
    TRef.unary main_call1.cst main_call1.v0 (broadcastInDim S50000x128 ![] bcast_S_S50000x128),
    TRef.binary (.of main_v34) main_call1.v0 main_call1.v1 (cmpf .oge),
    TRef.unary (.of main_cst_5) main_call1.v2 id,
    TRef.unary main_call1.v2 main_call1.v3 (broadcastInDim S50000x128 ![] bcast_S_S50000x128),
    TRef.binary main_call1.v3 (.of main_v34) main_call1.v4 mulf,
    TRef.ternary main_call1.v1 (.of main_v34) main_call1.v4 main_call1.call0.v0 select ]

/-- The entry function's operations in order, each callee's operations listed at its call site. -/
abbrev ops : List (HloOp τ sig (Elt F)) := stage1 ++ (stage2 ++ (stage3 ++ stage4))

set_option maxRecDepth 2048 in
/-- The entry function is that straight line: the callees unfolded at their calls, sequencing reassociated. -/
theorem main_eq (c : Dev nD) : main (F := F) c = seq ops := by
  simp only [main, fn_leaky_relu.body, fn_where.body, fn_leaky_relu_0.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-! ## Each stage read back over arbitrary starting contents -/

attribute [local irreducible] Host.gather Host.scatterAdd in
/-- The first stage leaves, at its last buffer, the aggregated projection plus the bias, of the contents it starts from. -/
theorem stage1_v16 (V : Valuation τ sig (Elt F)) :
    after stage1 V (main_v16 : DevRef τ sig)
      = addf (RefTerm.agg256 (Host.dotGeneral dot_S50000x256_S256x256_S50000x256_1_0_0_1_n_n none (V (main_arg0 : DevRef τ sig)) (V (main_arg1 : DevRef τ sig)))
            (V (main_arg5 : DevRef τ sig)) (V (main_arg6 : DevRef τ sig)) (V (main_arg7 : DevRef τ sig)))
          (RefTerm.bias256 (V (main_arg2 : DevRef τ sig))) := by
  after_results_simp
  rfl

/-- The second stage leaves the rectifier of what the first stage's last buffer held. -/
theorem stage2_v17 (V : Valuation τ sig (Elt F)) :
    after stage2 V (main_v17 : DevRef τ sig) = RefTerm.lrelu256 (V (main_v16 : DevRef τ sig)) := by
  after_results_simp
  rfl

attribute [local irreducible] Host.gather Host.scatterAdd in
/-- The third stage: as the first, on the hidden array and the second layer's weights. -/
theorem stage3_v34 (V : Valuation τ sig (Elt F)) :
    after stage3 V (main_v34 : DevRef τ sig)
      = addf (RefTerm.agg128 (Host.dotGeneral dot_S50000x256_S256x128_S50000x128_1_0_0_1_n_n none (V (main_v17 : DevRef τ sig)) (V (main_arg3 : DevRef τ sig)))
            (V (main_arg5 : DevRef τ sig)) (V (main_arg6 : DevRef τ sig)) (V (main_arg7 : DevRef τ sig)))
          (RefTerm.bias128 (V (main_arg4 : DevRef τ sig))) := by
  after_results_simp
  rfl

/-- The fourth stage: the rectifier of what the third stage's last buffer held. -/
theorem stage4_v35 (V : Valuation τ sig (Elt F)) :
    after stage4 V (main_v35 : DevRef τ sig) = RefTerm.lrelu128 (V (main_v34 : DevRef τ sig)) := by
  after_results_simp
  rfl

/-! ## No stage writes an argument -/

theorem stage1_arg0 (V : Valuation τ sig (Elt F)) : after stage1 V (main_arg0 : DevRef τ sig) = V (main_arg0 : DevRef τ sig) := by after_results_simp
theorem stage1_arg1 (V : Valuation τ sig (Elt F)) : after stage1 V (main_arg1 : DevRef τ sig) = V (main_arg1 : DevRef τ sig) := by after_results_simp
theorem stage1_arg2 (V : Valuation τ sig (Elt F)) : after stage1 V (main_arg2 : DevRef τ sig) = V (main_arg2 : DevRef τ sig) := by after_results_simp
theorem stage1_arg3 (V : Valuation τ sig (Elt F)) : after stage1 V (main_arg3 : DevRef τ sig) = V (main_arg3 : DevRef τ sig) := by after_results_simp
theorem stage1_arg4 (V : Valuation τ sig (Elt F)) : after stage1 V (main_arg4 : DevRef τ sig) = V (main_arg4 : DevRef τ sig) := by after_results_simp
theorem stage1_arg5 (V : Valuation τ sig (Elt F)) : after stage1 V (main_arg5 : DevRef τ sig) = V (main_arg5 : DevRef τ sig) := by after_results_simp
theorem stage1_arg6 (V : Valuation τ sig (Elt F)) : after stage1 V (main_arg6 : DevRef τ sig) = V (main_arg6 : DevRef τ sig) := by after_results_simp
theorem stage1_arg7 (V : Valuation τ sig (Elt F)) : after stage1 V (main_arg7 : DevRef τ sig) = V (main_arg7 : DevRef τ sig) := by after_results_simp
theorem stage2_arg0 (V : Valuation τ sig (Elt F)) : after stage2 V (main_arg0 : DevRef τ sig) = V (main_arg0 : DevRef τ sig) := by after_results_simp
theorem stage2_arg1 (V : Valuation τ sig (Elt F)) : after stage2 V (main_arg1 : DevRef τ sig) = V (main_arg1 : DevRef τ sig) := by after_results_simp
theorem stage2_arg2 (V : Valuation τ sig (Elt F)) : after stage2 V (main_arg2 : DevRef τ sig) = V (main_arg2 : DevRef τ sig) := by after_results_simp
theorem stage2_arg3 (V : Valuation τ sig (Elt F)) : after stage2 V (main_arg3 : DevRef τ sig) = V (main_arg3 : DevRef τ sig) := by after_results_simp
theorem stage2_arg4 (V : Valuation τ sig (Elt F)) : after stage2 V (main_arg4 : DevRef τ sig) = V (main_arg4 : DevRef τ sig) := by after_results_simp
theorem stage2_arg5 (V : Valuation τ sig (Elt F)) : after stage2 V (main_arg5 : DevRef τ sig) = V (main_arg5 : DevRef τ sig) := by after_results_simp
theorem stage2_arg6 (V : Valuation τ sig (Elt F)) : after stage2 V (main_arg6 : DevRef τ sig) = V (main_arg6 : DevRef τ sig) := by after_results_simp
theorem stage2_arg7 (V : Valuation τ sig (Elt F)) : after stage2 V (main_arg7 : DevRef τ sig) = V (main_arg7 : DevRef τ sig) := by after_results_simp
theorem stage3_arg0 (V : Valuation τ sig (Elt F)) : after stage3 V (main_arg0 : DevRef τ sig) = V (main_arg0 : DevRef τ sig) := by after_results_simp
theorem stage3_arg1 (V : Valuation τ sig (Elt F)) : after stage3 V (main_arg1 : DevRef τ sig) = V (main_arg1 : DevRef τ sig) := by after_results_simp
theorem stage3_arg2 (V : Valuation τ sig (Elt F)) : after stage3 V (main_arg2 : DevRef τ sig) = V (main_arg2 : DevRef τ sig) := by after_results_simp
theorem stage3_arg3 (V : Valuation τ sig (Elt F)) : after stage3 V (main_arg3 : DevRef τ sig) = V (main_arg3 : DevRef τ sig) := by after_results_simp
theorem stage3_arg4 (V : Valuation τ sig (Elt F)) : after stage3 V (main_arg4 : DevRef τ sig) = V (main_arg4 : DevRef τ sig) := by after_results_simp
theorem stage3_arg5 (V : Valuation τ sig (Elt F)) : after stage3 V (main_arg5 : DevRef τ sig) = V (main_arg5 : DevRef τ sig) := by after_results_simp
theorem stage3_arg6 (V : Valuation τ sig (Elt F)) : after stage3 V (main_arg6 : DevRef τ sig) = V (main_arg6 : DevRef τ sig) := by after_results_simp
theorem stage3_arg7 (V : Valuation τ sig (Elt F)) : after stage3 V (main_arg7 : DevRef τ sig) = V (main_arg7 : DevRef τ sig) := by after_results_simp
theorem stage4_arg0 (V : Valuation τ sig (Elt F)) : after stage4 V (main_arg0 : DevRef τ sig) = V (main_arg0 : DevRef τ sig) := by after_results_simp
theorem stage4_arg1 (V : Valuation τ sig (Elt F)) : after stage4 V (main_arg1 : DevRef τ sig) = V (main_arg1 : DevRef τ sig) := by after_results_simp
theorem stage4_arg2 (V : Valuation τ sig (Elt F)) : after stage4 V (main_arg2 : DevRef τ sig) = V (main_arg2 : DevRef τ sig) := by after_results_simp
theorem stage4_arg3 (V : Valuation τ sig (Elt F)) : after stage4 V (main_arg3 : DevRef τ sig) = V (main_arg3 : DevRef τ sig) := by after_results_simp
theorem stage4_arg4 (V : Valuation τ sig (Elt F)) : after stage4 V (main_arg4 : DevRef τ sig) = V (main_arg4 : DevRef τ sig) := by after_results_simp
theorem stage4_arg5 (V : Valuation τ sig (Elt F)) : after stage4 V (main_arg5 : DevRef τ sig) = V (main_arg5 : DevRef τ sig) := by after_results_simp
theorem stage4_arg6 (V : Valuation τ sig (Elt F)) : after stage4 V (main_arg6 : DevRef τ sig) = V (main_arg6 : DevRef τ sig) := by after_results_simp
theorem stage4_arg7 (V : Valuation τ sig (Elt F)) : after stage4 V (main_arg7 : DevRef τ sig) = V (main_arg7 : DevRef τ sig) := by after_results_simp

/-! ## The whole line -/

/-- The line is its four stages, one after the other. -/
theorem after_ops (V : Valuation τ sig (Elt F)) :
    after ops V = after stage4 (after stage3 (after stage2 (after stage1 V))) := by
  rw [show (ops : List (HloOp τ sig (Elt F))) = stage1 ++ (stage2 ++ (stage3 ++ stage4)) from rfl,
    after_append, after_append, after_append]

/-- The result buffer ends at the two layers' term of the arguments' starting contents: each stage's last buffer is
    read by the next stage only, and the arguments a later stage reads are written by no earlier one. -/
theorem result_eq (V : Valuation τ sig (Elt F)) :
    after ops V (main_v35 : DevRef τ sig)
      = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, stage4_v35, stage3_v34, stage2_v17, stage1_v16,
    stage2_arg3, stage2_arg4, stage2_arg5, stage2_arg6, stage2_arg7,
    stage1_arg3, stage1_arg4, stage1_arg5, stage1_arg6, stage1_arg7]
  rfl

theorem arg0_eq (V : Valuation τ sig (Elt F)) : after ops V (main_arg0 : DevRef τ sig) = V (main_arg0 : DevRef τ sig) := by
  rw [after_ops, stage4_arg0, stage3_arg0, stage2_arg0, stage1_arg0]
theorem arg1_eq (V : Valuation τ sig (Elt F)) : after ops V (main_arg1 : DevRef τ sig) = V (main_arg1 : DevRef τ sig) := by
  rw [after_ops, stage4_arg1, stage3_arg1, stage2_arg1, stage1_arg1]
theorem arg2_eq (V : Valuation τ sig (Elt F)) : after ops V (main_arg2 : DevRef τ sig) = V (main_arg2 : DevRef τ sig) := by
  rw [after_ops, stage4_arg2, stage3_arg2, stage2_arg2, stage1_arg2]
theorem arg3_eq (V : Valuation τ sig (Elt F)) : after ops V (main_arg3 : DevRef τ sig) = V (main_arg3 : DevRef τ sig) := by
  rw [after_ops, stage4_arg3, stage3_arg3, stage2_arg3, stage1_arg3]
theorem arg4_eq (V : Valuation τ sig (Elt F)) : after ops V (main_arg4 : DevRef τ sig) = V (main_arg4 : DevRef τ sig) := by
  rw [after_ops, stage4_arg4, stage3_arg4, stage2_arg4, stage1_arg4]
theorem arg5_eq (V : Valuation τ sig (Elt F)) : after ops V (main_arg5 : DevRef τ sig) = V (main_arg5 : DevRef τ sig) := by
  rw [after_ops, stage4_arg5, stage3_arg5, stage2_arg5, stage1_arg5]
theorem arg6_eq (V : Valuation τ sig (Elt F)) : after ops V (main_arg6 : DevRef τ sig) = V (main_arg6 : DevRef τ sig) := by
  rw [after_ops, stage4_arg6, stage3_arg6, stage2_arg6, stage1_arg6]
theorem arg7_eq (V : Valuation τ sig (Elt F)) : after ops V (main_arg7 : DevRef τ sig) = V (main_arg7 : DevRef τ sig) := by
  rw [after_ops, stage4_arg7, stage3_arg7, stage2_arg7, stage1_arg7]

/-- On every device, for any float values, from any memory with zero counters: every weakly fair execution of the entry
    function terminates with the result buffer at the two layers' term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.Bridge.lean ====
/-
  The kernel's and the reference's spellings of the pieces that are the same on both sides: the aggregation along the
  edges is one chain of host operations, written once in each program over that program's own names for the same
  dimension numbers; and the kernel's bias row `1 × n` holds the bias's entries in order.
-/
import proofs.«156183_j30571577213152_1_alg».proof.Proof.KTerm
import proofs.«156183_j30571577213152_1_alg».proof.Proof.RefTerm
import Idealize.ShloMosaic.Lib.Pipeline.Value
import Idealize.ShloMosaic.Lib.ValueIdx

noncomputable section

namespace Cert.Proof.Bridge

open Idealize.ShloMosaic Idealize.ShloMosaic.ValueIdx
open Cert.KernelIdeal (KTerm.agg256 KTerm.agg128 KTerm.row256 KTerm.row128)
open Cert.ReferenceIdeal (RefTerm.agg256 RefTerm.agg128)

/-- The aggregation over 256 columns is the same function in both programs. -/
theorem agg256_eq (sup : FVec Ideal Cert.ReferenceIdeal.S50000x256 .f32) (src dst : IVec Cert.ReferenceIdeal.S800000 32)
    (ew : FVec Ideal Cert.ReferenceIdeal.S800000 .f32) :
    Cert.KernelIdeal.KTerm.agg256 (F := Ideal) sup src dst ew = Cert.ReferenceIdeal.RefTerm.agg256 (F := Ideal) sup src dst ew := rfl

/-- The aggregation over 128 columns is the same function in both programs. -/
theorem agg128_eq (sup : FVec Ideal Cert.ReferenceIdeal.S50000x128 .f32) (src dst : IVec Cert.ReferenceIdeal.S800000 32)
    (ew : FVec Ideal Cert.ReferenceIdeal.S800000 .f32) :
    Cert.KernelIdeal.KTerm.agg128 (F := Ideal) sup src dst ew = Cert.ReferenceIdeal.RefTerm.agg128 (F := Ideal) sup src dst ew := rfl

/-- Entry `(0, j)` of the bias row is entry `j` of the bias (256 entries). -/
theorem row256_apply (b : FVec Ideal Cert.KernelIdeal.S256 .f32) (j : Fin 256) :
    Cert.KernelIdeal.KTerm.row256 (F := Ideal) b (ix2 (0 : Fin 1) j) = b (ix1 j) := by
  unfold Cert.KernelIdeal.KTerm.row256
  refine (shapeCast_addUnit_apply ![256] b _ (ix2 (0 : Fin 1) j)).trans (congrArg b ?_)
  funext a
  match a with
  | ⟨0, _⟩ => rfl

/-- Entry `(0, j)` of the bias row is entry `j` of the bias (128 entries). -/
theorem row128_apply (b : FVec Ideal Cert.KernelIdeal.S128 .f32) (j : Fin 128) :
    Cert.KernelIdeal.KTerm.row128 (F := Ideal) b (ix2 (0 : Fin 1) j) = b (ix1 j) := by
  unfold Cert.KernelIdeal.KTerm.row128
  refine (shapeCast_addUnit_apply ![128] b _ (ix2 (0 : Fin 1) j)).trans (congrArg b ?_)
  funext a
  match a with
  | ⟨0, _⟩ => rfl

end Cert.Proof.Bridge

end
-- ==== Proof.RefDot.lean ====
/-
  The reference's two dense projections as matrix products. Its `dot_general` contracts axis 1 of the left operand
  with axis 0 of the right and has no batch axis, so its dimension numbers are the plain ones, and at the extended
  reals the result's entry `(r, c)` is `∑ k, X (r, k) · W (k, c)`.
-/
import proofs.«156183_j30571577213152_1_alg».proof.Proof.Gen.ReferenceIdeal
import proofs.«156183_j30571577213152_1_alg».proof.Proof.Spec
import proofs.«156183_j30571577213152_1_alg».proof.Proof.LibPlainDot

noncomputable section

open scoped BigOperators

namespace Cert.ReferenceIdeal.RefDot

open Cert.ReferenceIdeal Cert.ReferenceIdeal.Gen
open Idealize.ShloMosaic Idealize.ShloMosaic.ValueIdx

/-- The first projection's dimension numbers are the plain ones for `50000 × 256` by `256 × 256`. -/
theorem dims1 : dot_S50000x256_S256x256_S50000x256_1_0_0_1_n_n = DotDims.plain 50000 256 256 := rfl

/-- The second projection's dimension numbers are the plain ones for `50000 × 256` by `256 × 128`. -/
theorem dims2 : dot_S50000x256_S256x128_S50000x128_1_0_0_1_n_n = DotDims.plain 50000 256 128 := rfl

/-- The first projection (`50000 × 256` node features by a `256 × 256` weight) is the matrix product. -/
theorem dot1 (x : FVec Ideal S50000x256 .f32) (w : FVec Ideal S256x256 .f32) :
    Host.dotGeneral (F := Ideal) dot_S50000x256_S256x256_S50000x256_1_0_0_1_n_n none x w = Cert.Proof.Spec.mm x w := by
  simp only [Host.dotGeneral]
  rw [dims1]
  funext i
  exact Cert.Proof.PlainDot.dotGeneral_plain none .single x w i

/-- The second projection (`50000 × 256` hidden features by a `256 × 128` weight) is the matrix product. -/
theorem dot2 (h : FVec Ideal S50000x256 .f32) (w : FVec Ideal S256x128 .f32) :
    Host.dotGeneral (F := Ideal) dot_S50000x256_S256x128_S50000x128_1_0_0_1_n_n none h w = Cert.Proof.Spec.mm h w := by
  simp only [Host.dotGeneral]
  rw [dims2]
  funext i
  exact Cert.Proof.PlainDot.dotGeneral_plain none .single h w i

end Cert.ReferenceIdeal.RefDot

end
-- ==== Proof.RefAct.lean ====
/-
  The reference's bias-and-rectifier stage is the whole-array function `act`: the bias broadcast over the nodes reads,
  at row `r` and column `j`, entry `j` of the bias; the constants broadcast from scalars read their word everywhere;
  what is left at an index is the weak spelling of the leaky rectifier.
-/
import proofs.«156183_j30571577213152_1_alg».proof.Proof.RefTerm
import proofs.«156183_j30571577213152_1_alg».proof.Proof.Spec
import Idealize.ShloMosaic.Lib.Pipeline.Value
import Idealize.ShloMosaic.Lib.ValueIdx
import Idealize.ShloMosaic.Lib.ValueLayout

noncomputable section

namespace Cert.ReferenceIdeal.RefAct

open Cert.ReferenceIdeal Cert.ReferenceIdeal.Gen Idealize.ShloMosaic Idealize.ShloMosaic.ValueIdx
open Cert.Proof

/-- On `50000 × 256`: the weak-spelling rectifier of (array + bias repeated on every node) is the bias-and-rectifier
    function of the array and the bias laid out as a row. -/
theorem act256 (A : FVec Ideal S50000x256 .f32) (b : FVec Ideal S256 .f32) (b' : (⟨2, ![1, 256]⟩ : Shape).Idx → EReal)
    (hb : ∀ j : Fin 256, b' (ix2 (0 : Fin 1) j) = b (ix1 j)) :
    RefTerm.lrelu256 (addf A (RefTerm.bias256 b)) = Spec.act (M := 50000) (N := 256) A b' := by
  funext i
  obtain ⟨p, q, rfl⟩ : ∃ (p : Fin 50000) (q : Fin 256), i = ix2 p q := ⟨i 0, i 1, eq_ix2 i⟩
  -- the two constants spread over the array read their word everywhere
  have hzero : broadcastInDim S50000x256 ![] bcast_S_S50000x256 (constant (F := Ideal) S_ .f32 0x00000000#32) (ix2 p q)
      = Ideal.ofBits .f32 0x00000000#32 :=
    broadcastInDim_apply _ _ _ (ix2 p q) ix0 (fun a => a.elim0)
  have hslope : broadcastInDim S50000x256 ![] bcast_S_S50000x256 (id (constant (F := Ideal) S_ .f32 0x3C23D70A#32)) (ix2 p q)
      = Ideal.ofBits .f32 0x3C23D70A#32 :=
    broadcastInDim_apply _ _ _ (ix2 p q) ix0 (fun a => a.elim0)
  -- the bias repeated on every node reads the bias entry of the column
  have hbias : RefTerm.bias256 b (ix2 p q) = b (ix1 q) := by
    unfold RefTerm.bias256
    rw [broadcastInDim_apply ![0, 1] bcast_S1x256_S50000x256_0_1 _ (ix2 p q) (ix2 (0 : Fin 1) q) (fun a => by
      match a with
      | ⟨0, _⟩ => rfl
      | ⟨1, _⟩ => rfl)]
    exact broadcastInDim_apply ![1] bcast_S256_S1x256_1 b (ix2 (0 : Fin 1) q) (ix1 q) (fun a => by
      match a with
      | ⟨0, _⟩ => rfl)
  unfold RefTerm.lrelu256
  rw [select_apply, cmpf_apply, mulf_apply, addf_apply, hzero, hslope, hbias]
  unfold Spec.act
  rw [show b' (ix2 (0 : Fin 1) ((ix2 p q : (⟨2, ![50000, 256]⟩ : Shape).Idx) 1)) = b (ix1 q) from hb q]
  exact Spec.select_oge _

/-- On `50000 × 128`: the weak-spelling rectifier of (array + bias repeated on every node) is the bias-and-rectifier
    function of the array and the bias laid out as a row. -/
theorem act128 (A : FVec Ideal S50000x128 .f32) (b : FVec Ideal S128 .f32) (b' : (⟨2, ![1, 128]⟩ : Shape).Idx → EReal)
    (hb : ∀ j : Fin 128, b' (ix2 (0 : Fin 1) j) = b (ix1 j)) :
    RefTerm.lrelu128 (addf A (RefTerm.bias128 b)) = Spec.act (M := 50000) (N := 128) A b' := by
  funext i
  obtain ⟨p, q, rfl⟩ : ∃ (p : Fin 50000) (q : Fin 128), i = ix2 p q := ⟨i 0, i 1, eq_ix2 i⟩
  -- the two constants spread over the array read their word everywhere
  have hzero : broadcastInDim S50000x128 ![] bcast_S_S50000x128 (constant (F := Ideal) S_ .f32 0x00000000#32) (ix2 p q)
      = Ideal.ofBits .f32 0x00000000#32 :=
    broadcastInDim_apply _ _ _ (ix2 p q) ix0 (fun a => a.elim0)
  have hslope : broadcastInDim S50000x128 ![] bcast_S_S50000x128 (id (constant (F := Ideal) S_ .f32 0x3C23D70A#32)) (ix2 p q)
      = Ideal.ofBits .f32 0x3C23D70A#32 :=
    broadcastInDim_apply _ _ _ (ix2 p q) ix0 (fun a => a.elim0)
  -- the bias repeated on every node reads the bias entry of the column
  have hbias : RefTerm.bias128 b (ix2 p q) = b (ix1 q) := by
    unfold RefTerm.bias128
    rw [broadcastInDim_apply ![0, 1] bcast_S1x128_S50000x128_0_1 _ (ix2 p q) (ix2 (0 : Fin 1) q) (fun a => by
      match a with
      | ⟨0, _⟩ => rfl
      | ⟨1, _⟩ => rfl)]
    exact broadcastInDim_apply ![1] bcast_S128_S1x128_1 b (ix2 (0 : Fin 1) q) (ix1 q) (fun a => by
      match a with
      | ⟨0, _⟩ => rfl)
  unfold RefTerm.lrelu128
  rw [select_apply, cmpf_apply, mulf_apply, addf_apply, hzero, hslope, hbias]
  unfold Spec.act
  rw [show b' (ix2 (0 : Fin 1) ((ix2 p q : (⟨2, ![50000, 128]⟩ : Shape).Idx) 1)) = b (ix1 q) from hb q]
  exact Spec.select_oge _

end Cert.ReferenceIdeal.RefAct

end
-- ==== Proof.Same.lean ====
/-
  The two programs' results are one function of the arguments. Stage by stage: the reference's `dot_general` is the
  product the kernel's regions compute block by block; the aggregation along the edges is the same chain of host
  operations on both sides; the reference's bias broadcast and weak-spelling rectifier is the kernel's bias row and
  strict-spelling rectifier (they differ only where the sum is zero, and there both give zero).
-/
import proofs.«156183_j30571577213152_1_alg».proof.Proof.KChain
import proofs.«156183_j30571577213152_1_alg».proof.Proof.Bridge
import proofs.«156183_j30571577213152_1_alg».proof.Proof.RefDot
import proofs.«156183_j30571577213152_1_alg».proof.Proof.RefAct

noncomputable section

namespace Cert.Proof.Same

open Idealize.ShloMosaic
open Cert.ReferenceIdeal Cert.ReferenceIdeal.Gen

/-- The reference's composed term, at the ideal values, is the kernel's two layers. -/
theorem result_eq (x : FVec Ideal S50000x256 .f32) (w1 : FVec Ideal S256x256 .f32) (b1 : FVec Ideal S256 .f32)
    (w2 : FVec Ideal S256x128 .f32) (b2 : FVec Ideal S128 .f32) (src dst : IVec S800000 32) (ew : FVec Ideal S800000 .f32) :
    RefTerm.result (F := Ideal) x w1 b1 w2 b2 src dst ew = Cert.KernelIdeal.KChain.result x w1 b1 w2 b2 src dst ew := by
  unfold RefTerm.result RefTerm.layer2 RefTerm.layer1 Cert.KernelIdeal.KChain.result Cert.KernelIdeal.KChain.hidden
  rw [RefDot.dot1, RefAct.act256 _ b1 (Cert.KernelIdeal.KTerm.row256 (F := Ideal) b1) (Bridge.row256_apply b1),
    RefDot.dot2, RefAct.act128 _ b2 (Cert.KernelIdeal.KTerm.row128 (F := Ideal) b2) (Bridge.row128_apply b2),
    ← Bridge.agg256_eq, ← Bridge.agg128_eq]

end Cert.Proof.Same

end
-- ==== Proof.lean ====
/-
  Two layers of graph convolution — project every node's features by a dense matrix, gather the projected rows along
  the edges, scale by the edge weights, add up per destination node, add a bias, apply the leaky rectifier — computed by
  a program of four pipelined regions (the two projections and the two bias-and-rectifier maps, each over ten blocks of
  5000 nodes) among host operations (the aggregation), against the same layers written with one `dot_general` each.

  Over the extended reals the two agree entry by entry, with no use of the inputs' finiteness: a block of the product
  is the block of rows times the whole weight matrix, so the ten blocks tile the one product; the aggregation is the
  same chain of operations on both sides; and the two spellings of the rectifier, `a > 0 ? a : a · s` and
  `a ≥ 0 ? a : s · a`, differ only at `a = 0`, where both give `0`.

  The frames of the two kernel programs are their generated frame certificates; the reference's frame is its run with
  the result dropped; the idealized kernel is the kernel's own text read over the extended reals, so `preserves` has
  nothing to state.
-/
import proofs.«156183_j30571577213152_1_alg».proof.Defs
import proofs.«156183_j30571577213152_1_alg».proof.Proof.Gen.Kernel
import proofs.«156183_j30571577213152_1_alg».proof.Proof.Gen.Kernel.Frame
import proofs.«156183_j30571577213152_1_alg».proof.Proof.Gen.KernelIdeal
import proofs.«156183_j30571577213152_1_alg».proof.Proof.Gen.KernelIdeal.Frame
import proofs.«156183_j30571577213152_1_alg».proof.Proof.Gen.ReferenceIdeal
import proofs.«156183_j30571577213152_1_alg».proof.Proof.Gen.Pre_finite_inputs
import proofs.«156183_j30571577213152_1_alg».proof.Proof.KRun
import proofs.«156183_j30571577213152_1_alg».proof.Proof.KChain
import proofs.«156183_j30571577213152_1_alg».proof.Proof.RegMm0
import proofs.«156183_j30571577213152_1_alg».proof.Proof.RegAct1
import proofs.«156183_j30571577213152_1_alg».proof.Proof.RegMm2
import proofs.«156183_j30571577213152_1_alg».proof.Proof.RegAct3
import proofs.«156183_j30571577213152_1_alg».proof.Proof.RefRun
import proofs.«156183_j30571577213152_1_alg».proof.Proof.Same
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: the run's post without the result. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result array at the two layers of the (agreeing) arguments. -/
theorem algebraic : Cert.algebraic_KernelIdeal_ReferenceIdeal := by
  intro m ρ m' ρ' _ hagree
  refine ⟨fun c => Cert.KernelIdeal.KChain.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KChain.result_eq m ρ Cert.KernelIdeal.RegMm0.final0
        Cert.KernelIdeal.RegAct1.final1 Cert.KernelIdeal.RegMm2.final2 Cert.KernelIdeal.RegAct3.final3 c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact Cert.Proof.Same.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
